-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call2_cst : Ref sig .tc := ⟨.hbm, 66, rfl⟩
abbrev main_call2_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x64, .f32⟩
  | .hbm, ⟨112, _⟩ => ⟨S850000x1, .f32⟩
  | .hbm, ⟨113, _⟩ => ⟨S850000x64, .f32⟩
  | .hbm, ⟨114, _⟩ => ⟨S850000x64, .f32⟩
  | .hbm, ⟨115, _⟩ => ⟨S_, .f32⟩
  | .hbm, ⟨116, _⟩ => ⟨S50000x64, .f32⟩
  | .hbm, ⟨117, _⟩ => ⟨S850000x1, .i32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.GcnSpec.lean ====
/-
  Two graph-convolution layers over a graph with a self-loop added at every node, as whole-array functions of
  the argument arrays.

  The edge list `ei` is [2, 800000]: row 0 holds each edge's source node, row 1 its target node. `srcOf` and
  `tgtOf` append the identity 0 … 49999 to each row (the self-loops), giving 850000 edges. `wrap` turns an index
  below zero into that index plus 50000 and lays the indices out as a column [850000, 1], the form a gather takes.
  `degOf` counts, for every node, the edges that end in it (a scatter-add of ones), `dinvOf` is deg^(-1/2) where
  the degree is positive and 0 elsewhere, and `normOf` is the edge weight dinv[src] · dinv[tgt].

  One layer, given the node features already multiplied by the layer's weight matrix (`h`), gathers the row of
  `h` at every edge's source, scales it by the edge's weight, and adds it into the row of the edge's target
  (`aggregate128`, `aggregate64`); the bias row is then added to every node. The first layer ends in max(·, 0).
  `gcn` is the two layers composed, each weight product a plain M×K by K×N product on the host.
-/
import proofs.«101754_j58780922413863_1_alg».proof.Proof.Gen.ReferenceIdeal

noncomputable section

namespace Cert.Gcn

open Idealize.ShloMosaic Cert.ReferenceIdeal Cert.ReferenceIdeal.Gen

variable {F : FTy → Type} [FloatOps F]

/-- The 850000 source nodes: row 0 of the edge list, then one self-loop per node. -/
def srcOf (ei : (⟨S2x800000, .i32⟩ : BufTy).Contents (Elt F)) : (⟨S850000, .i32⟩ : BufTy).Contents (Elt F) :=
  concatenate S850000 0 [⟨S800000, (shapeCast S800000 (extractStridedSlice S1x800000 ![0, 0] ei slices_S2x800000_S1x800000_0_0) shapeCasts_S1x800000_S800000)⟩, ⟨S50000, (iotaInDim S50000 32 0)⟩] concatenates_S800000_S50000_S850000_d0

/-- The 850000 target nodes: row 1 of the edge list, then one self-loop per node. -/
def tgtOf (ei : (⟨S2x800000, .i32⟩ : BufTy).Contents (Elt F)) : (⟨S850000, .i32⟩ : BufTy).Contents (Elt F) :=
  concatenate S850000 0 [⟨S800000, (shapeCast S800000 (extractStridedSlice S1x800000 ![1, 0] ei slices_S2x800000_S1x800000_1_0) shapeCasts_S1x800000_S800000)⟩, ⟨S50000, (iotaInDim S50000 32 0)⟩] concatenates_S800000_S50000_S850000_d0

/-- Node indices as a gather takes them: an index below zero moved up by 50000, laid out as a column. -/
def wrap (idx : (⟨S850000, .i32⟩ : BufTy).Contents (Elt F)) : (⟨S850000x1, .i32⟩ : BufTy).Contents (Elt F) :=
  broadcastInDim S850000x1 ![0] bcast_S850000_S850000x1_0
    (select (cmpi .slt idx (broadcastInDim S850000 ![] bcast_S_S850000 (constantI S_ 32 0#32)))
      (addi idx (broadcastInDim S850000 ![] bcast_S_S850000 (constantI S_ 32 50000#32))) idx)

/-- Each node's number of incoming edges, self-loop included: ones added at the edges' targets. -/
def degOf (tgt : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (broadcastInDim S850000x1 ![0] bcast_S850000_S850000x1_0 tgt) (broadcastInDim S850000 ![] bcast_S_S850000 (constant S_ .f32 0x3F800000#32))

/-- deg^(-1/2) where the degree is positive, 0 elsewhere. -/
def dinvOf (tgt : (⟨S850000, .i32⟩ : BufTy).Contents (Elt F)) : (⟨S50000, .f32⟩ : BufTy).Contents (Elt F) :=
  select (cmpf .ogt (degOf tgt) (broadcastInDim S50000 ![] bcast_S_S50000 (constant S_ .f32 0x00000000#32)))
    (Host.rsqrt (degOf tgt)) (broadcastInDim S50000 ![] bcast_S_S50000 (id (constant S_ .f32 0x00000000#32)))

/-- The weight of every edge: dinv at its source times dinv at its target. -/
def normOf (src tgt : (⟨S850000, .i32⟩ : BufTy).Contents (Elt F)) : (⟨S850000, .f32⟩ : BufTy).Contents (Elt F) :=
  mulf (Host.gather gather_S50000_S850000x1_S850000_n_0_n_n_0_1_1 (dinvOf tgt) (wrap src))
    (Host.gather gather_S50000_S850000x1_S850000_n_0_n_n_0_1_1 (dinvOf tgt) (wrap tgt))

/-- Rows of width 128 sent along the edges: row src[e] of `h`, scaled by the edge's weight, added into row tgt[e]. -/
def aggregate128 (h : (⟨S50000x128, .f32⟩ : BufTy).Contents (Elt F)) (src tgt : (⟨S850000, .i32⟩ : BufTy).Contents (Elt F))
    (w : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 tgt)
    (mulf (Host.gather gather_S50000x128_S850000x1_S850000x128_1_0_n_n_0_1_1128 h (wrap src))
      (broadcastInDim S850000x128 ![0, 1] bcast_S850000x1_S850000x128_0_1 (broadcastInDim S850000x1 ![0] bcast_S850000_S850000x1_0 w)))

/-- Rows of width 64 sent along the edges. -/
def aggregate64 (h : (⟨S50000x64, .f32⟩ : BufTy).Contents (Elt F)) (src tgt : (⟨S850000, .i32⟩ : BufTy).Contents (Elt F))
    (w : (⟨S850000, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32))
    (broadcastInDim S850000x1 ![0] bcast_S850000_S850000x1_0 tgt)
    (mulf (Host.gather gather_S50000x64_S850000x1_S850000x64_1_0_n_n_0_1_164 h (wrap src))
      (broadcastInDim S850000x64 ![0, 1] bcast_S850000x1_S850000x64_0_1 (broadcastInDim S850000x1 ![0] bcast_S850000_S850000x1_0 w)))

/-- The first layer after its weight product: aggregate along the edges, add the bias row, cut off below zero. -/
def layer1 (h : (⟨S50000x128, .f32⟩ : BufTy).Contents (Elt F)) (src tgt : (⟨S850000, .i32⟩ : BufTy).Contents (Elt F))
    (w : (⟨S850000, .f32⟩ : BufTy).Contents (Elt F)) (b : (⟨S128, .f32⟩ : BufTy).Contents (Elt F)) :
    (⟨S50000x128, .f32⟩ : BufTy).Contents (Elt F) :=
  maximumf (addf (aggregate128 h src tgt w)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The second layer after its weight product: aggregate along the edges, add the bias row. -/
def layer2 (h : (⟨S50000x64, .f32⟩ : BufTy).Contents (Elt F)) (src tgt : (⟨S850000, .i32⟩ : BufTy).Contents (Elt F))
    (w : (⟨S850000, .f32⟩ : BufTy).Contents (Elt F)) (b : (⟨S64, .f32⟩ : BufTy).Contents (Elt F)) :
    (⟨S50000x64, .f32⟩ : BufTy).Contents (Elt F) :=
  addf (aggregate64 h src tgt w)
    (broadcastInDim S50000x64 ![0, 1] bcast_S1x64_S50000x64_0_1 (broadcastInDim S1x64 ![1] bcast_S64_S1x64_1 b))

/-- The first layer's weight product: node features [50000, 128] by a [128, 128] matrix. -/
def prod1 (x : (⟨S50000x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none x W

/-- The second layer's weight product: hidden features [50000, 128] by a [128, 64] matrix. -/
def prod2 (x : (⟨S50000x128, .f32⟩ : BufTy).Contents (Elt F)) (W : (⟨S128x64, .f32⟩ : BufTy).Contents (Elt F)) :
    (⟨S50000x64, .f32⟩ : BufTy).Contents (Elt F) :=
  Host.dotGeneral dot_S50000x128_S128x64_S50000x64_1_0_0_1_n_n none x W

/-- Both layers: out = Â · relu(Â · (x W1) + b1) W2 + b2, Â the normalised adjacency with self-loops. -/
def gcn (x : (⟨S50000x128, .f32⟩ : BufTy).Contents (Elt F)) (ei : (⟨S2x800000, .i32⟩ : BufTy).Contents (Elt F))
    (W1 : (⟨S128x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F)) :
    (⟨S50000x64, .f32⟩ : BufTy).Contents (Elt F) :=
  layer2 (prod2 (layer1 (prod1 x W1) (srcOf ei) (tgtOf ei) (normOf (srcOf ei) (tgtOf ei)) b1) W2)
    (srcOf ei) (tgtOf ei) (normOf (srcOf ei) (tgtOf ei)) b2

end Cert.Gcn

end
-- ==== Proof.RefIsGcn.lean ====
/-
  The reference program's result is the two-layer graph convolution `Cert.Gcn.gcn` of its argument arrays.

  The reference's run gives its result buffer as the composed term of its host operations. It builds the edge
  weights twice, once inside each layer, from the same edge list by the same operations; `gcn` names them once and
  uses them in both layers. Unfolding the names gives the reference's term symbol for symbol.
-/
import proofs.«101754_j58780922413863_1_alg».proof.Proof.RefRunPatched
import proofs.«101754_j58780922413863_1_alg».proof.Proof.GcnSpec

set_option maxRecDepth 16384

noncomputable section

namespace Cert.Gcn

open Idealize.ShloMosaic Idealize.ShloMosaic.TcCoe Idealize.SL.Sem Cert.ReferenceIdeal

variable {F : FTy → Type} [FloatOps F]

/-- The reference's result term is `gcn` of the six argument arrays. -/
theorem reference_result (m : (ℓ : Loc nD τ sig) → Buf (Elt F) ℓ) (c : Dev nD) :
    Cert.ReferenceIdeal.ValueP.res_main_v87 m c
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v87 gcn layer2 layer1 aggregate64 aggregate128 prod1 prod2 normOf dinvOf degOf wrap srcOf tgtOf
  rfl

end Cert.Gcn

end
-- ==== Proof.KernelRun.lean ====
/-
  The idealized kernel program's run, read at EVERY buffer: from any launch memory with zero counters every weakly
  fair execution of @main terminates, and in the final state every buffer that outlives @main holds what the last
  segment boundary's contents say — the fold of the host stretches and the two matrix-product regions over the
  launch memory. The frame claim keeps only the argument arrays of this reading; a value claim reads the result
  buffer from the same state.
-/
import proofs.«101754_j58780922413863_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives @main ends at the last boundary's contents. The segments, the thread states and the
    launch are the generated frame's; only the reading of the final state is kept whole. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result buffer in the final state: the last boundary's contents at `main_v64`. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v64 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩)
    (run_all m ρ)

end Cert.KernelIdeal.Whole

end
-- ==== Proof.Stretches.lean ====
/-
  The host operations of the kernel program between its two matrix-product regions, read as the functions of
  `Cert.Gcn`: whatever the buffers hold when a stretch is entered (`W`),

  * after the operations before the first region, the source and target node lists are `srcOf` / `tgtOf` of the
    edge list, the edge weights are `normOf` of them, and no argument array has been written;
  * after the operations between the regions, the hidden features are `layer1` of the first product, the node
    lists, the edge weights and the first bias, and the node lists, the edge weights and the later arguments stand;
  * after the operations behind the second region, the result is `layer2` of the second product, the node lists,
    the edge weights and the second bias.

  The kernel program computes the edge weights once, before the first region, and reads the same buffer in both
  layers.
-/
import proofs.«101754_j58780922413863_1_alg».proof.Proof.Gen.KernelIdeal.Launch
import proofs.«101754_j58780922413863_1_alg».proof.Proof.GcnSpec
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

/-- The buffers when the first region is entered, from the contents `W` at launch. -/
abbrev entry0 : Valuation τ sig (Elt F) := after hostOps0_2 (after hostOps0_1 (after hostOps0 W))

/-- The buffers when the second region is entered, from the contents `W` at the first region's exit. -/
abbrev entry1 : Valuation τ sig (Elt F) := after hostOps1_1 (after hostOps1 W)

/-! ## Before the first region -/

theorem entry0_src : entry0 W (Proc.devRef .tc main_v3) = Cert.Gcn.srcOf (W (Proc.devRef .tc main_arg1)) := by
  after_results_simp <;> rfl

theorem entry0_tgt : entry0 W (Proc.devRef .tc main_v6) = Cert.Gcn.tgtOf (W (Proc.devRef .tc main_arg1)) := by
  after_results_simp <;> rfl

theorem entry0_norm : entry0 W (Proc.devRef .tc main_v29)
    = Cert.Gcn.normOf (Cert.Gcn.srcOf (W (Proc.devRef .tc main_arg1))) (Cert.Gcn.tgtOf (W (Proc.devRef .tc main_arg1))) := by
  after_results_simp <;> rfl

theorem entry0_arg0 : entry0 W (Proc.devRef .tc main_arg0) = W (Proc.devRef .tc main_arg0) := by after_results_simp <;> rfl
theorem entry0_arg2 : entry0 W (Proc.devRef .tc main_arg2) = W (Proc.devRef .tc main_arg2) := by after_results_simp <;> rfl
theorem entry0_arg3 : entry0 W (Proc.devRef .tc main_arg3) = W (Proc.devRef .tc main_arg3) := by after_results_simp <;> rfl
theorem entry0_arg4 : entry0 W (Proc.devRef .tc main_arg4) = W (Proc.devRef .tc main_arg4) := by after_results_simp <;> rfl
theorem entry0_arg5 : entry0 W (Proc.devRef .tc main_arg5) = W (Proc.devRef .tc main_arg5) := by after_results_simp <;> rfl

/-! ## Between the regions -/

theorem entry1_hidden : entry1 W (Proc.devRef .tc main_v47)
    = Cert.Gcn.layer1 (W (Proc.devRef .tc main_v30)) (W (Proc.devRef .tc main_v3)) (W (Proc.devRef .tc main_v6))
        (W (Proc.devRef .tc main_v29)) (W (Proc.devRef .tc main_arg3)) := by
  after_results_simp <;> rfl

theorem entry1_src : entry1 W (Proc.devRef .tc main_v3) = W (Proc.devRef .tc main_v3) := by after_results_simp <;> rfl
theorem entry1_tgt : entry1 W (Proc.devRef .tc main_v6) = W (Proc.devRef .tc main_v6) := by after_results_simp <;> rfl
theorem entry1_norm : entry1 W (Proc.devRef .tc main_v29) = W (Proc.devRef .tc main_v29) := by after_results_simp <;> rfl
theorem entry1_arg4 : entry1 W (Proc.devRef .tc main_arg4) = W (Proc.devRef .tc main_arg4) := by after_results_simp <;> rfl
theorem entry1_arg5 : entry1 W (Proc.devRef .tc main_arg5) = W (Proc.devRef .tc main_arg5) := by after_results_simp <;> rfl

/-! ## Behind the second region -/

theorem exit_result : after hostOps2 W (Proc.devRef .tc main_v64)
    = Cert.Gcn.layer2 (W (Proc.devRef .tc main_v48)) (W (Proc.devRef .tc main_v3)) (W (Proc.devRef .tc main_v6))
        (W (Proc.devRef .tc main_v29)) (W (Proc.devRef .tc main_arg5)) := by
  after_results_simp <;> rfl

end Cert.KernelIdeal.Stretch

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.Product0.lean ====
/-
  What the first matrix-product region leaves in its result array, as one whole-array function of the arrays it
  reads: the plain product of the [50000, 128] left operand by the [128, 128] right operand.

  The region walks ten grid points. At point t it multiplies rows 5000·t … 5000·t + 4999 of the left operand (one
  block) by the whole right operand, into a zero accumulator, and writes the [5000, 128] product back as rows
  5000·t … 5000·t + 4999 of the result. Entry (p, q) of a block's product is Σ_k left(5000·t + p, k) · right(k, q),
  which is entry (5000·t + p, q) of the whole product; the rounding of the operands to bf16 on the way into the
  matrix unit is the identity on the extended reals. The ten blocks tile the result's rows, so the array ends
  holding the whole product.
-/
import proofs.«101754_j58780922413863_1_alg».proof.Proof.Gen.KernelIdeal.Frame
import proofs.«101754_j58780922413863_1_alg».proof.Proof.GcnSpec
import proofs.«101754_j58780922413863_1_alg».proof.Proof.LibPlainMatmul
import proofs.«101754_j58780922413863_1_alg».proof.Proof.LibHostReads
import Idealize.ShloMosaic.Lib.Pipeline.Value
import Idealize.ShloMosaic.Lib.ValueIdx

set_option maxRecDepth 16384

noncomputable section

open scoped BigOperators

namespace Cert.KernelIdeal.Product0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry (p, q) of the body's stored value: the sum over k of left block (p, k) times right block (k, q). -/
theorem payload_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.PlainMatmul.matmul_zero_apply 5000 128 128 none _ _ p q

/-- Entry (P, Q) of the whole product on the host. -/
theorem product_apply (A : (⟨Cert.ReferenceIdeal.S50000x128, .f32⟩ : BufTy).Contents (Elt Ideal))
    (B : (⟨Cert.ReferenceIdeal.S128x128, .f32⟩ : BufTy).Contents (Elt Ideal)) (P : Fin 50000) (Q : Fin 128) :
    Cert.Gcn.prod1 A B (ix2 P Q) = ∑ k : Fin 128, A (ix2 P k) * B (ix2 k Q) := by
  unfold Cert.Gcn.prod1
  exact Cert.LibHostReads.dotGeneral_plain_apply 50000 128 128 none A B P Q

/-- The printed index maps over the grid: the left operand's and the result's blocks move together down the rows,
    one block per point, and the right operand stays whole. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays as the region finds them. -/
theorem flushed_eq (c : Dev nD) (t : Fin cfg0.N) :
    (dat0 V c).flushed 2 t = ((cfg0.win 2).blk t).view.read (Elt Ideal) (Cert.Gcn.prod1 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_facts t
  funext j
  obtain ⟨p, q, rfl⟩ : ∃ (p : Fin 5000) (q : Fin 128), j = ix2 p q := ⟨j 0, j 1, eq_ix2 j⟩
  have ht : t.val < 10 := t.isLt.trans_eq (show cfg0.N = 10 from N_0)
  have hP : 5000 * t.val + p.val < 50000 := by have := p.isLt; omega
  show k0_pay1 (iblk0 V c 0 t) (iblk0 V c 1 t) (ix2 p q)
    = Cert.Gcn.prod1 (V c main_arg0) (V c main_arg2) (((cfg0.win 2).blk t).view.emb (ix2 p q))
  have hout : ((cfg0.win 2).blk t).view.emb (ix2 p q) = ix2 (⟨5000 * t.val + p.val, hP⟩ : Fin 50000) q := by
    funext a; apply Fin.ext
    match a with
    | ⟨0, _⟩ => show win0_2.index t (0 : Fin 2) * 5000 + 1 * p.val = 5000 * t.val + p.val; rw [e4]; omega
    | ⟨1, _⟩ => show win0_2.index t (1 : Fin 2) * 128 + 1 * q.val = q.val; rw [e5]; omega
  rw [hout, payload_apply, product_apply]
  refine Finset.sum_congr rfl fun k _ => ?_
  have hl : iblk0 V c 0 t (ix2 p k) = V c main_arg0 (ix2 (⟨5000 * t.val + p.val, hP⟩ : Fin 50000) k) := by
    unfold iblk0
    rw [View.read_apply]
    show V c main_arg0 _ = V c main_arg0 _
    congr 1
    funext a; apply Fin.ext
    match a with
    | ⟨0, _⟩ => show win0_0.index t (0 : Fin 2) * 5000 + 1 * p.val = 5000 * t.val + p.val; rw [e0]; omega
    | ⟨1, _⟩ => show win0_0.index t (1 : Fin 2) * 128 + 1 * k.val = k.val; rw [e1]; omega
  have hr : iblk0 V c 1 t (ix2 k q) = V c main_arg2 (ix2 k q) := by
    unfold iblk0
    rw [View.read_apply]
    show V c main_arg2 _ = V c main_arg2 _
    congr 1
    funext a; apply Fin.ext
    match a with
    | ⟨0, _⟩ => show win0_1.index t (0 : Fin 2) * 128 + 1 * k.val = k.val; rw [e2]; omega
    | ⟨1, _⟩ => show win0_1.index t (1 : Fin 2) * 128 + 1 * q.val = q.val; rw [e3]; omega
  rw [hl, hr]

/-- An index of the result array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every row of the result lies in the block of the point row / 5000. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨e0, e1, e2, e3, e4, e5⟩ := index_facts t
  have htv : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; rw [e4, htv]; omega
  | ⟨1, _⟩ => show win0_2.index t (1 : Fin 2) * 128 ≤ (i 1).val ∧ (i 1).val < win0_2.index t (1 : Fin 2) * 128 + 128; rw [e5]; omega

/-- The result array after the region: the whole product of the two arrays the region reads. -/
theorem result (c : Dev nD) : (dat0 V c).arrAt 2 cfg0.N = Cert.Gcn.prod1 (V c main_arg0) (V c main_arg2) :=
  (dat0 V c).arrAt_eq_of_cover 2 _ (fun t _ => flushed_eq V c t) covered

end Cert.KernelIdeal.Product0

end
-- ==== Proof.Product1.lean ====
/-
  What the second matrix-product region leaves in its result array, as one whole-array function of the arrays it
  reads: the plain product of the [50000, 128] left operand by the [128, 64] right operand.

  The region walks ten grid points. At point t it multiplies rows 5000·t … 5000·t + 4999 of the left operand (one
  block) by the whole right operand, into a zero accumulator, and writes the [5000, 64] product back as rows
  5000·t … 5000·t + 4999 of the result. Entry (p, q) of a block's product is Σ_k left(5000·t + p, k) · right(k, q),
  which is entry (5000·t + p, q) of the whole product; the rounding of the operands to bf16 on the way into the
  matrix unit is the identity on the extended reals. The ten blocks tile the result's rows, so the array ends
  holding the whole product.
-/
import proofs.«101754_j58780922413863_1_alg».proof.Proof.Gen.KernelIdeal.Frame
import proofs.«101754_j58780922413863_1_alg».proof.Proof.GcnSpec
import proofs.«101754_j58780922413863_1_alg».proof.Proof.LibPlainMatmul
import proofs.«101754_j58780922413863_1_alg».proof.Proof.LibHostReads
import Idealize.ShloMosaic.Lib.Pipeline.Value
import Idealize.ShloMosaic.Lib.ValueIdx

set_option maxRecDepth 16384

noncomputable section

open scoped BigOperators

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry (p, q) of the body's stored value: the sum over k of left block (p, k) times right block (k, q). -/
theorem payload_apply (x0 : Vec Ideal S5000x128 .f32) (x1 : Vec Ideal S128x64 .f32) (p : Fin 5000) (q : Fin 64) :
    k1_pay1 x0 x1 (ix2 p q) = ∑ k : Fin 128, x0 (ix2 p k) * x1 (ix2 k q) := by
  unfold k1_pay1
  rw [shapeCast_self]
  exact Cert.PlainMatmul.matmul_zero_apply 5000 128 64 none _ _ p q

/-- Entry (P, Q) of the whole product on the host. -/
theorem product_apply (A : (⟨Cert.ReferenceIdeal.S50000x128, .f32⟩ : BufTy).Contents (Elt Ideal))
    (B : (⟨Cert.ReferenceIdeal.S128x64, .f32⟩ : BufTy).Contents (Elt Ideal)) (P : Fin 50000) (Q : Fin 64) :
    Cert.Gcn.prod2 A B (ix2 P Q) = ∑ k : Fin 128, A (ix2 P k) * B (ix2 k Q) := by
  unfold Cert.Gcn.prod2
  exact Cert.LibHostReads.dotGeneral_plain_apply 50000 128 64 none A B P Q

/-- The printed index maps over the grid: the left operand's and the result's blocks move together down the rows,
    one block per point, and the right operand stays whole. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the arrays as the region finds them. -/
theorem flushed_eq (c : Dev nD) (t : Fin cfg1.N) :
    (dat1 V c).flushed 2 t = ((cfg1.win 2).blk t).view.read (Elt Ideal) (Cert.Gcn.prod2 (V c main_v47) (V c main_arg4)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x64) zero_offsets]
  obtain ⟨e0, e1, e2, e3, e4, e5⟩ := index_facts t
  funext j
  obtain ⟨p, q, rfl⟩ : ∃ (p : Fin 5000) (q : Fin 64), j = ix2 p q := ⟨j 0, j 1, eq_ix2 j⟩
  have ht : t.val < 10 := t.isLt.trans_eq (show cfg1.N = 10 from N_1)
  have hP : 5000 * t.val + p.val < 50000 := by have := p.isLt; omega
  show k1_pay1 (iblk1 V c 0 t) (iblk1 V c 1 t) (ix2 p q)
    = Cert.Gcn.prod2 (V c main_v47) (V c main_arg4) (((cfg1.win 2).blk t).view.emb (ix2 p q))
  have hout : ((cfg1.win 2).blk t).view.emb (ix2 p q) = ix2 (⟨5000 * t.val + p.val, hP⟩ : Fin 50000) q := by
    funext a; apply Fin.ext
    match a with
    | ⟨0, _⟩ => show win1_2.index t (0 : Fin 2) * 5000 + 1 * p.val = 5000 * t.val + p.val; rw [e4]; omega
    | ⟨1, _⟩ => show win1_2.index t (1 : Fin 2) * 64 + 1 * q.val = q.val; rw [e5]; omega
  rw [hout, payload_apply, product_apply]
  refine Finset.sum_congr rfl fun k _ => ?_
  have hl : iblk1 V c 0 t (ix2 p k) = V c main_v47 (ix2 (⟨5000 * t.val + p.val, hP⟩ : Fin 50000) k) := by
    unfold iblk1
    rw [View.read_apply]
    show V c main_v47 _ = V c main_v47 _
    congr 1
    funext a; apply Fin.ext
    match a with
    | ⟨0, _⟩ => show win1_0.index t (0 : Fin 2) * 5000 + 1 * p.val = 5000 * t.val + p.val; rw [e0]; omega
    | ⟨1, _⟩ => show win1_0.index t (1 : Fin 2) * 128 + 1 * k.val = k.val; rw [e1]; omega
  have hr : iblk1 V c 1 t (ix2 k q) = V c main_arg4 (ix2 k q) := by
    unfold iblk1
    rw [View.read_apply]
    show V c main_arg4 _ = V c main_arg4 _
    congr 1
    funext a; apply Fin.ext
    match a with
    | ⟨0, _⟩ => show win1_1.index t (0 : Fin 2) * 128 + 1 * k.val = k.val; rw [e2]; omega
    | ⟨1, _⟩ => show win1_1.index t (1 : Fin 2) * 64 + 1 * q.val = q.val; rw [e3]; omega
  rw [hl, hr]

/-- An index of the result array is in point t's block iff each coordinate is in the block's range on its axis. -/
theorem mem_block (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Every row of the result lies in the block of the point row / 5000. -/
theorem covered (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  let t : Fin cfg1.N := ⟨(i 0).val / 5000, by rw [show cfg1.N = 10 from N_1]; omega⟩
  obtain ⟨e0, e1, e2, e3, e4, e5⟩ := index_facts t
  have htv : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; rw [e4, htv]; omega
  | ⟨1, _⟩ => show win1_2.index t (1 : Fin 2) * 64 ≤ (i 1).val ∧ (i 1).val < win1_2.index t (1 : Fin 2) * 64 + 64; rw [e5]; omega

/-- The result array after the region: the whole product of the two arrays the region reads. -/
theorem result (c : Dev nD) : (dat1 V c).arrAt 2 cfg1.N = Cert.Gcn.prod2 (V c main_v47) (V c main_arg4) :=
  (dat1 V c).arrAt_eq_of_cover 2 _ (fun t _ => flushed_eq V c t) covered

end Cert.KernelIdeal.Product1

end
-- ==== Proof.KernelValue.lean ====
/-
  The idealized kernel program's result is the two-layer graph convolution `Cert.Gcn.gcn` of its argument arrays.

  The run leaves every buffer at the last boundary's contents, a fold through @main: three host stretches, the first
  matrix-product region, two host stretches, the second region, a last host stretch. Followed backwards from the
  result buffer: the last stretch is `layer2` of the second region's result array, the node lists, the edge
  weights and the second bias; the second region's result array is the product of the hidden features by the
  second weight matrix; the hidden features are `layer1` of the first region's result array, the node lists, the
  edge weights and the first bias; the first region's result array is the product of the node features by the first
  weight matrix; and the node lists and edge weights, computed once before the first region, are `srcOf`, `tgtOf`
  and `normOf` of the edge list. A region writes its result array only, and no stretch writes an argument array or
  a buffer an earlier stretch filled, so each of these reaches its readers unchanged.
-/
import proofs.«101754_j58780922413863_1_alg».proof.Proof.Gen.KernelIdeal.Frame
import proofs.«101754_j58780922413863_1_alg».proof.Proof.Stretches
import proofs.«101754_j58780922413863_1_alg».proof.Proof.Product0
import proofs.«101754_j58780922413863_1_alg».proof.Proof.Product1

set_option maxRecDepth 16384

noncomputable section

namespace Cert.KernelIdeal.ResultValue

open Cert.KernelIdeal Cert.KernelIdeal.Gen
open Idealize.ShloMosaic Idealize.ShloMosaic.TcCoe Idealize.SL.Sem
open Cert.Gcn

variable (m : (ℓ : Loc nD τ sig) → Buf (Elt Ideal) ℓ) (ρ : Dev nD → PrngReg) (c : Dev nD)

/-! ## When the first region is entered -/

theorem at3_src : W3 m ρ c (Proc.devRef .tc main_v3) = srcOf (m ((c.tc : Thread nD τ).loc main_arg1)) :=
  Stretch.entry0_src (W0 m ρ c)
theorem at3_tgt : W3 m ρ c (Proc.devRef .tc main_v6) = tgtOf (m ((c.tc : Thread nD τ).loc main_arg1)) :=
  Stretch.entry0_tgt (W0 m ρ c)
theorem at3_norm : W3 m ρ c (Proc.devRef .tc main_v29)
    = normOf (srcOf (m ((c.tc : Thread nD τ).loc main_arg1))) (tgtOf (m ((c.tc : Thread nD τ).loc main_arg1))) :=
  Stretch.entry0_norm (W0 m ρ c)
theorem at3_arg0 : W3 m ρ c (Proc.devRef .tc main_arg0) = m ((c.tc : Thread nD τ).loc main_arg0) := Stretch.entry0_arg0 (W0 m ρ c)
theorem at3_arg2 : W3 m ρ c (Proc.devRef .tc main_arg2) = m ((c.tc : Thread nD τ).loc main_arg2) := Stretch.entry0_arg2 (W0 m ρ c)
theorem at3_arg3 : W3 m ρ c (Proc.devRef .tc main_arg3) = m ((c.tc : Thread nD τ).loc main_arg3) := Stretch.entry0_arg3 (W0 m ρ c)
theorem at3_arg4 : W3 m ρ c (Proc.devRef .tc main_arg4) = m ((c.tc : Thread nD τ).loc main_arg4) := Stretch.entry0_arg4 (W0 m ρ c)
theorem at3_arg5 : W3 m ρ c (Proc.devRef .tc main_arg5) = m ((c.tc : Thread nD τ).loc main_arg5) := Stretch.entry0_arg5 (W0 m ρ c)

/-! ## When the first region is left: its result array holds the first product, every other buffer stands -/

theorem at4_product : W4 m ρ c (Proc.devRef .tc main_v30)
    = prod1 (m ((c.tc : Thread nD τ).loc main_arg0)) (m ((c.tc : Thread nD τ).loc main_arg2)) :=
  (W4_arr m ρ c 2).trans ((Product0.result (V3 m ρ) c).trans (congrArg₂ prod1 (at3_arg0 m ρ c) (at3_arg2 m ρ c)))
theorem at4_src : W4 m ρ c (Proc.devRef .tc main_v3) = srcOf (m ((c.tc : Thread nD τ).loc main_arg1)) :=
  (W4_of_ne m ρ c main_v3 (by decide)).trans (at3_src m ρ c)
theorem at4_tgt : W4 m ρ c (Proc.devRef .tc main_v6) = tgtOf (m ((c.tc : Thread nD τ).loc main_arg1)) :=
  (W4_of_ne m ρ c main_v6 (by decide)).trans (at3_tgt m ρ c)
theorem at4_norm : W4 m ρ c (Proc.devRef .tc main_v29)
    = normOf (srcOf (m ((c.tc : Thread nD τ).loc main_arg1))) (tgtOf (m ((c.tc : Thread nD τ).loc main_arg1))) :=
  (W4_of_ne m ρ c main_v29 (by decide)).trans (at3_norm m ρ c)
theorem at4_arg3 : W4 m ρ c (Proc.devRef .tc main_arg3) = m ((c.tc : Thread nD τ).loc main_arg3) :=
  (W4_of_ne m ρ c main_arg3 (by decide)).trans (at3_arg3 m ρ c)
theorem at4_arg4 : W4 m ρ c (Proc.devRef .tc main_arg4) = m ((c.tc : Thread nD τ).loc main_arg4) :=
  (W4_of_ne m ρ c main_arg4 (by decide)).trans (at3_arg4 m ρ c)
theorem at4_arg5 : W4 m ρ c (Proc.devRef .tc main_arg5) = m ((c.tc : Thread nD τ).loc main_arg5) :=
  (W4_of_ne m ρ c main_arg5 (by decide)).trans (at3_arg5 m ρ c)

/-! ## When the second region is entered -/

/-- The hidden features: the first layer of the first product. -/
abbrev hidden : (⟨Cert.ReferenceIdeal.S50000x128, .f32⟩ : BufTy).Contents (Elt Ideal) :=
  layer1 (prod1 (m ((c.tc : Thread nD τ).loc main_arg0)) (m ((c.tc : Thread nD τ).loc main_arg2)))
    (srcOf (m ((c.tc : Thread nD τ).loc main_arg1))) (tgtOf (m ((c.tc : Thread nD τ).loc main_arg1)))
    (normOf (srcOf (m ((c.tc : Thread nD τ).loc main_arg1))) (tgtOf (m ((c.tc : Thread nD τ).loc main_arg1))))
    (m ((c.tc : Thread nD τ).loc main_arg3))

theorem at6_hidden : W6 m ρ c (Proc.devRef .tc main_v47) = hidden m c :=
  (Stretch.entry1_hidden (W4 m ρ c)).trans (by
    rw [at4_product m ρ c, at4_src m ρ c, at4_tgt m ρ c, at4_norm m ρ c, at4_arg3 m ρ c])
theorem at6_src : W6 m ρ c (Proc.devRef .tc main_v3) = srcOf (m ((c.tc : Thread nD τ).loc main_arg1)) :=
  (Stretch.entry1_src (W4 m ρ c)).trans (at4_src m ρ c)
theorem at6_tgt : W6 m ρ c (Proc.devRef .tc main_v6) = tgtOf (m ((c.tc : Thread nD τ).loc main_arg1)) :=
  (Stretch.entry1_tgt (W4 m ρ c)).trans (at4_tgt m ρ c)
theorem at6_norm : W6 m ρ c (Proc.devRef .tc main_v29)
    = normOf (srcOf (m ((c.tc : Thread nD τ).loc main_arg1))) (tgtOf (m ((c.tc : Thread nD τ).loc main_arg1))) :=
  (Stretch.entry1_norm (W4 m ρ c)).trans (at4_norm m ρ c)
theorem at6_arg4 : W6 m ρ c (Proc.devRef .tc main_arg4) = m ((c.tc : Thread nD τ).loc main_arg4) :=
  (Stretch.entry1_arg4 (W4 m ρ c)).trans (at4_arg4 m ρ c)
theorem at6_arg5 : W6 m ρ c (Proc.devRef .tc main_arg5) = m ((c.tc : Thread nD τ).loc main_arg5) :=
  (Stretch.entry1_arg5 (W4 m ρ c)).trans (at4_arg5 m ρ c)

/-! ## When the second region is left: its result array holds the second product, every other buffer stands -/

theorem at7_product : W7 m ρ c (Proc.devRef .tc main_v48) = prod2 (hidden m c) (m ((c.tc : Thread nD τ).loc main_arg4)) :=
  (W7_arr m ρ c 2).trans ((Product1.result (V6 m ρ) c).trans (congrArg₂ prod2 (at6_hidden m ρ c) (at6_arg4 m ρ c)))
theorem at7_src : W7 m ρ c (Proc.devRef .tc main_v3) = srcOf (m ((c.tc : Thread nD τ).loc main_arg1)) :=
  (W7_of_ne m ρ c main_v3 (by decide)).trans (at6_src m ρ c)
theorem at7_tgt : W7 m ρ c (Proc.devRef .tc main_v6) = tgtOf (m ((c.tc : Thread nD τ).loc main_arg1)) :=
  (W7_of_ne m ρ c main_v6 (by decide)).trans (at6_tgt m ρ c)
theorem at7_norm : W7 m ρ c (Proc.devRef .tc main_v29)
    = normOf (srcOf (m ((c.tc : Thread nD τ).loc main_arg1))) (tgtOf (m ((c.tc : Thread nD τ).loc main_arg1))) :=
  (W7_of_ne m ρ c main_v29 (by decide)).trans (at6_norm m ρ c)
theorem at7_arg5 : W7 m ρ c (Proc.devRef .tc main_arg5) = m ((c.tc : Thread nD τ).loc main_arg5) :=
  (W7_of_ne m ρ c main_arg5 (by decide)).trans (at6_arg5 m ρ c)

/-! ## After the last stretch -/

/-- The result buffer after the run is `gcn` of the six argument arrays at launch. -/
theorem result_value : W8 m ρ c (Proc.devRef .tc main_v64)
    = gcn (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) :=
  (Stretch.exit_result (W7 m ρ c)).trans (by
    rw [at7_product m ρ c, at7_src m ρ c, at7_tgt m ρ c, at7_norm m ρ c, at7_arg5 m ρ c]
    rfl)

end Cert.KernelIdeal.ResultValue

end
-- ==== Proof.lean ====
/-
  The kernel program and its reference compute the same two-layer graph convolution,
      out = Â · relu(Â · (x W1) + b1) W2 + b2,   Â = D^(-1/2) (A + I) D^(-1/2),
  over a graph of 50000 nodes and 800000 edges with a self-loop added at every node.

  The two programs differ in two places only. The kernel program runs each weight product (x W1, then h W2) as a
  matrix-product kernel that walks the rows in ten blocks of 5000, rounding its operands to bf16 on the way into the
  matrix unit and accumulating into zeros; the reference runs each as one product on the host. On the extended
  reals the rounding is the identity and a block of the product is the rows of the whole product, so each kernel's
  result array is the host's product (Proof/Product0.lean, Proof/Product1.lean). And the kernel program computes
  the edge weights dinv[src] · dinv[tgt] once and reads them in both layers, where the reference computes them
  again, by the same operations, inside the second layer. Everything else — the self-loops, the degrees, the
  gather of source rows, the scaling, the scatter-add into target rows, the biases, the cut-off at zero — is the
  same chain of host operations on both sides, and is carried as the functions of Proof/GcnSpec.lean without ever
  being opened. No law of arithmetic is used beyond reading a matrix product as a sum of products, so the
  finiteness of the inputs is not needed.

  The frames of the two kernel programs are their generated frame certificates; the reference's frame is its run
  with the result dropped. The ideal pass rewrote nothing, so the kernel's idealization has nothing to preserve.
-/
import proofs.«101754_j58780922413863_1_alg».proof.Defs
import proofs.«101754_j58780922413863_1_alg».proof.Proof.Gen.Kernel
import proofs.«101754_j58780922413863_1_alg».proof.Proof.Gen.Kernel.Frame
import proofs.«101754_j58780922413863_1_alg».proof.Proof.Gen.KernelIdeal
import proofs.«101754_j58780922413863_1_alg».proof.Proof.Gen.KernelIdeal.Frame
import proofs.«101754_j58780922413863_1_alg».proof.Proof.Gen.ReferenceIdeal
import proofs.«101754_j58780922413863_1_alg».proof.Proof.Gen.Pre_finite_inputs
import proofs.«101754_j58780922413863_1_alg».proof.Proof.RefRunPatched
import proofs.«101754_j58780922413863_1_alg».proof.Proof.RefIsGcn
import proofs.«101754_j58780922413863_1_alg».proof.Proof.KernelRun
import proofs.«101754_j58780922413863_1_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernel_ideal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the same result array: `gcn` of the arguments. -/
theorem algebraic : Cert.algebraic_KernelIdeal_ReferenceIdeal := by
  intro m ρ m' ρ' _ hagree
  refine ⟨fun c => Cert.Gcn.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.ResultValue.result_value m ρ c), (h c).2⟩)
      (Cert.KernelIdeal.Whole.run_result m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.Gcn.reference_result, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
